-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x12x2048x64 : Shape := ⟨4, ![2, 12, 2048, 64]⟩
abbrev S_ : Shape := ⟨0, ![]⟩

class Facts : Prop where
  bcast_S_S2x12x2048x64 : S_.BroadcastsInDim S2x12x2048x64 (![] : Fin 0 → Fin S2x12x2048x64.rank)
  reducesTo_S2x12x2048x64_S_d0_1_2_3 : S2x12x2048x64.ReducesTo [0, 1, 2, 3] S_
  h_S_ : 0 < S_.numel

variable [Facts]

def fn {F : FTy → Type} [FloatOps F] (main_arg0 : FVec F S2x12x2048x64 .f32) (main_arg1 : FVec F S2x12x2048x64 .f32) (main_arg2 : FVec F S2x12x2048x64 .f32) : IVec S_ 1 :=
  let main_v0 : FVec F S2x12x2048x64 .f32 := Host.absf main_arg0
  let main_cst : FVec F S_ .f32 := constant S_ .f32 0x7F800000#32
  let main_v1 : FVec F S2x12x2048x64 .f32 := broadcastInDim S2x12x2048x64 ![] bcast_S_S2x12x2048x64 main_cst
  let main_v2 : IVec S2x12x2048x64 1 := cmpf .olt main_v0 main_v1
  let main_c : IVec S_ 1 := constantI S_ 1 1#1
  let main_v3 : IVec S_ 1 := (fun x v => Host.reduce IntOp.andi x v reducesTo_S2x12x2048x64_S_d0_1_2_3 h_S_) main_v2 main_c
  let main_v4 : FVec F S2x12x2048x64 .f32 := Host.absf main_arg1
  let main_cst_0 : FVec F S_ .f32 := constant S_ .f32 0x7F800000#32
  let main_v5 : FVec F S2x12x2048x64 .f32 := broadcastInDim S2x12x2048x64 ![] bcast_S_S2x12x2048x64 main_cst_0
  let main_v6 : IVec S2x12x2048x64 1 := cmpf .olt main_v4 main_v5
  let main_c_1 : IVec S_ 1 := constantI S_ 1 1#1
  let main_v7 : IVec S_ 1 := (fun x v => Host.reduce IntOp.andi x v reducesTo_S2x12x2048x64_S_d0_1_2_3 h_S_) main_v6 main_c_1
  let main_v8 : IVec S_ 1 := andi main_v3 main_v7
  let main_v9 : FVec F S2x12x2048x64 .f32 := Host.absf main_arg2
  let main_cst_2 : FVec F S_ .f32 := constant S_ .f32 0x7F800000#32
  let main_v10 : FVec F S2x12x2048x64 .f32 := broadcastInDim S2x12x2048x64 ![] bcast_S_S2x12x2048x64 main_cst_2
  let main_v11 : IVec S2x12x2048x64 1 := cmpf .olt main_v9 main_v10
  let main_c_3 : IVec S_ 1 := constantI S_ 1 1#1
  let main_v12 : IVec S_ 1 := (fun x v => Host.reduce IntOp.andi x v reducesTo_S2x12x2048x64_S_d0_1_2_3 h_S_) main_v11 main_c_3
  let main_v13 : IVec S_ 1 := andi main_v8 main_v12
  main_v13
-- ==== Kernel.lean ====
abbrev S2x12x2048x64 : Shape := ⟨4, ![2, 12, 2048, 64]⟩
abbrev S2x12x2048x2048 : Shape := ⟨4, ![2, 12, 2048, 2048]⟩
abbrev S1x1x256x64 : Shape := ⟨4, ![1, 1, 256, 64]⟩
abbrev S1x1x2048x64 : Shape := ⟨4, ![1, 1, 2048, 64]⟩
abbrev S1x1x256x2048 : Shape := ⟨4, ![1, 1, 256, 2048]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S2x12x2048x64, .f32⟩
  | .hbm, ⟨4, _⟩ => ⟨S2x12x2048x2048, .f32⟩
  | .local _ .vmem, ⟨0, _⟩ => ⟨S1x1x256x64, .f32⟩
  | .local _ .vmem, ⟨1, _⟩ => ⟨S1x1x256x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x256x64, .f32⟩
  | .local _ .vmem, ⟨7, _⟩ => ⟨S1x1x256x64, .f32⟩
  | .local _ .vmem, ⟨8, _⟩ => ⟨S1x1x256x2048, .f32⟩
  | .local _ .vmem, ⟨9, _⟩ => ⟨S1x1x256x2048, .f32⟩
  | _, _ => ⟨S2x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 12, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  iota_S256x2048_d0_w32 : S256x2048.Iotas .tc 32 [0]
  iota_S256x2048_d1_w32 : S256x2048.Iotas .tc 32 [1]
  reduces_S256x2048_S256 : S256x2048.Reduces [1] S256
  shapeCasts_S256_S256x1 : S256.ShapeCasts S256x1
  broadcasts_S256x1_S256x2048 : S256x1.Broadcasts S256x2048
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  shapeCasts_S256x2048_S1x1x256x2048 : S256x2048.ShapeCasts S1x1x256x2048
  shapeCasts_S256x64_S1x1x256x64 : S256x64.ShapeCasts S1x1x256x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S2x12x2048x64.size a
  hwx0_0 : ∀ i : grid0.Coords, EltTy.bits .f32 = 32 ∨ (Rect.block (s := S2x12x2048x64) S1x1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x12x2048x64.size a
  hwx0_1 : ∀ i : grid0.Coords, EltTy.bits .f32 = 32 ∨ (Rect.block (s := S2x12x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x12x2048x64.size a
  hwx0_2 : ∀ i : grid0.Coords, EltTy.bits .f32 = 32 ∨ (Rect.block (s := S2x12x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x64.size a ≤ S2x12x2048x64.size a
  hwx0_3 : ∀ i : grid0.Coords, EltTy.bits .f32 = 32 ∨ (Rect.block (s := S2x12x2048x64) S1x1x256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x2048.size a ≤ S2x12x2048x2048.size a
  hwx0_4 : ∀ i : grid0.Coords, EltTy.bits .f32 = 32 ∨ (Rect.block (s := S2x12x2048x2048) S1x1x256x2048.size (cc0_transform_4 i) (hinb0_4 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x12x2048x64 : Shape := ⟨4, ![2, 12, 2048, 64]⟩
abbrev S2048 : Shape := ⟨1, ![2048]⟩
abbrev S2048x1 : Shape := ⟨2, ![2048, 1]⟩
abbrev S1x2048 : Shape := ⟨2, ![1, 2048]⟩
abbrev S_ : Shape := ⟨0, ![]⟩
abbrev S2048x2048 : Shape := ⟨2, ![2048, 2048]⟩
abbrev S2x12x2048x2048 : Shape := ⟨4, ![2, 12, 2048, 2048]⟩
abbrev S1x1x2048x2048 : Shape := ⟨4, ![1, 1, 2048, 2048]⟩
abbrev S2x12x2048 : Shape := ⟨3, ![2, 12, 2048]⟩
abbrev S2x12x2048x1 : Shape := ⟨4, ![2, 12, 2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S2048, .i32⟩
  | .hbm, ⟨4, _⟩ => ⟨S2048x1, .i32⟩
  | .hbm, ⟨5, _⟩ => ⟨S2048, .i32⟩
  | .hbm, ⟨6, _⟩ => ⟨S1x2048, .i32⟩
  | .hbm, ⟨7, _⟩ => ⟨S_, .i32⟩
  | .hbm, ⟨8, _⟩ => ⟨S2048x1, .i32⟩
  | .hbm, ⟨9, _⟩ => ⟨S2048x1, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S_, .i32⟩
  | .hbm, ⟨14, _⟩ => ⟨S2048x1, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S2048x2048, .i1⟩
  | .hbm, ⟨20, _⟩ => ⟨S2x12x2048x2048, .f32⟩
  | .hbm, ⟨21, _⟩ => ⟨S_, .f32⟩
  | .hbm, ⟨22, _⟩ => ⟨S2x12x2048x2048, .f32⟩
  | .hbm, ⟨23, _⟩ => ⟨S2x12x2048x2048, .f32⟩
  | .hbm, ⟨24, _⟩ => ⟨S1x1x2048x2048, .i1⟩
  | .hbm, ⟨25, _⟩ => ⟨S_, .f32⟩
  | .hbm, ⟨26, _⟩ => ⟨S_, .f32⟩
  | .hbm, ⟨27, _⟩ => ⟨S2x12x2048x2048, .i1⟩
  | .hbm, ⟨28, _⟩ => ⟨S2x12x2048x2048, .f32⟩
  | .hbm, ⟨29, _⟩ => ⟨S2x12x2048x2048, .f32⟩
  | .hbm, ⟨30, _⟩ => ⟨S_, .f32⟩
  | .hbm, ⟨31, _⟩ => ⟨S2x12x2048, .f32⟩
  | .hbm, ⟨32, _⟩ => ⟨S_, .f32⟩
  | .hbm, ⟨33, _⟩ => ⟨S2x12x2048, .f32⟩
  | .hbm, ⟨34, _⟩ => ⟨S2x12x2048, .f32⟩
  | .hbm, ⟨35, _⟩ => ⟨S2x12x2048x1, .f32⟩
  | .hbm, ⟨36, _⟩ => ⟨S2x12x2048x2048, .f32⟩
  | .hbm, ⟨37, _⟩ => ⟨S2x12x2048x2048, .f32⟩
  | .hbm, ⟨38, _⟩ => ⟨S2x12x2048x2048, .f32⟩
  | .hbm, ⟨39, _⟩ => ⟨S_, .f32⟩
  | .hbm, ⟨40, _⟩ => ⟨S2x12x2048, .f32⟩
  | .hbm, ⟨41, _⟩ => ⟨S2x12x2048x1, .f32⟩
  | .hbm, ⟨42, _⟩ => ⟨S2x12x2048x2048, .f32⟩
  | .hbm, ⟨43, _⟩ => ⟨S2x12x2048x2048, .f32⟩
  | .hbm, ⟨44, _⟩ => ⟨S2x12x2048x64, .f32⟩
  | _, _ => ⟨S2x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S_S2048x1 : S_.BroadcastsInDim S2048x1 (![] : Fin 0 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2x12x2048x2048 : S_.BroadcastsInDim S2x12x2048x2048 (![] : Fin 0 → Fin S2x12x2048x2048.rank)
  bcast_S2048x2048_S1x1x2048x2048_2_3 : S2048x2048.BroadcastsInDim S1x1x2048x2048 (![2, 3] : Fin 2 → Fin S1x1x2048x2048.rank)
  bcast_S1x1x2048x2048_S2x12x2048x2048_0_1_2_3 : S1x1x2048x2048.BroadcastsInDim S2x12x2048x2048 (![0, 1, 2, 3] : Fin 4 → Fin S2x12x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]

variable [Facts₀]

def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf

class Facts : Prop extends Facts₀ where

variable [Facts]
-- ==== Proof.WindowAttn.lean ====
/-
  Sliding-window attention as one function of the three argument arrays (program-independent).

  For a batch entry b, a head h and a query row r, the score of key j is the inner product of query row r with key
  row j over the 64 features, times 1/8; a key counts only inside the window r - 64 ≤ j < r + 64 (a comparison of
  32-bit signed words), and outside it the score is replaced by -∞. The row of 2048 masked scores is then normalised:
  its maximum m (a fold of max from -∞, joined once more with -∞), the exponentials e_j = exp (s_j - m), their sum from
  zero, and the quotients e_j / Σ_k e_k — the attention weights. The output at feature d is the weighted sum
  Σ_j weight_j · V[b, h, j, d] over all 2048 keys.

  Everything is stated on the extended reals, where a float's word denotes its exact value: the three words used are
  0x3E000000 (1/8), 0xFF800000 (-∞) and 0x00000000 (0); they are kept as words, never evaluated.
-/
import Idealize.ShloMosaic.PureOps.Ideal
import Idealize.ShloMosaic.Lib.ValueIdx

noncomputable section

namespace Cert.WindowAttn

open Idealize.ShloMosaic Idealize.ShloMosaic.ValueIdx

/-- The shape of the queries, the keys, the values and the output: batch, head, position, feature. -/
abbrev Sqkv : Shape := ⟨4, ![2, 12, 2048, 64]⟩
/-- The shape of the attention weights: batch, head, query position, key position. -/
abbrev Sattn : Shape := ⟨4, ![2, 12, 2048, 2048]⟩

/-- Key position `j` lies in the window of query position `r`: `r - 64 ≤ j` and `j < r + 64`, both signed, on 32-bit words. -/
def inWindow (r j : BitVec 32) : BitVec 1 :=
  IntOp.andi (IntOp.cmpi .sge j (IntOp.subi r 64#32)) (IntOp.cmpi .slt j (IntOp.addi r 64#32))

/-- The masked score of key `j` for the query row `q` at position word `r`: the inner product over the features times
    1/8 inside the window, -∞ outside. -/
def scoreRow (r : BitVec 32) (q : Fin 64 → EReal) (keys : Fin 2048 → Fin 64 → EReal) (j : Fin 2048) : EReal :=
  Scalar.select (inWindow r (BitVec.ofNat 32 j.val))
    ((∑ d : Fin 64, q d * keys j d) * Ideal.ofBits .f32 0x3E000000#32) (Ideal.ofBits .f32 0xFF800000#32)

/-- The maximum of a row of scores, from -∞. -/
def rowMax (s : Fin 2048 → EReal) : EReal :=
  max (Ideal.ofBits .f32 0xFF800000#32) ((Finset.univ : Finset (Fin 2048)).fold max (Ideal.ofBits .f32 0xFF800000#32) s)

/-- The exponential of a score less the row's maximum. -/
def rowExp (s : Fin 2048 → EReal) (j : Fin 2048) : EReal := Ideal.exp (s j - rowMax s)

/-- The sum of a row's exponentials, from zero. -/
def rowSum (s : Fin 2048 → EReal) : EReal := Ideal.ofBits .f32 0x00000000#32 + ∑ k : Fin 2048, rowExp s k

/-- The softmax of a row of scores at position `j`. -/
def softmaxRow (s : Fin 2048 → EReal) (j : Fin 2048) : EReal := Ideal.div (rowExp s j) (rowSum s)

/-- The attention weight of key `j` for query `r` of head `h` of batch entry `b`. -/
def attnAt (Q K : Sqkv.Idx → EReal) (b : Fin 2) (h : Fin 12) (r j : Fin 2048) : EReal :=
  softmaxRow (scoreRow (BitVec.ofNat 32 r.val) (fun d => Q (ix4 b h r d)) (fun j' d => K (ix4 b h j' d))) j

/-- The output at feature `d`: the values' rows weighted by the attention weights, summed over all keys. -/
def outAt (Q K V : Sqkv.Idx → EReal) (b : Fin 2) (h : Fin 12) (r : Fin 2048) (d : Fin 64) : EReal :=
  ∑ j : Fin 2048, attnAt Q K b h r j * V (ix4 b h j d)

/-- The attention weights as one array. -/
def attnArr (Q K : Sqkv.Idx → EReal) : Sattn.Idx → EReal := fun i =>
  attnAt Q K ⟨(i 0).val, (i 0).isLt⟩ ⟨(i 1).val, (i 1).isLt⟩ ⟨(i 2).val, (i 2).isLt⟩ ⟨(i 3).val, (i 3).isLt⟩

/-- The output as one array. -/
def outArr (Q K V : Sqkv.Idx → EReal) : Sqkv.Idx → EReal := fun i =>
  outAt Q K V ⟨(i 0).val, (i 0).isLt⟩ ⟨(i 1).val, (i 1).isLt⟩ ⟨(i 2).val, (i 2).isLt⟩ ⟨(i 3).val, (i 3).isLt⟩

theorem attnArr_ix4 (Q K : Sqkv.Idx → EReal) (b : Fin 2) (h : Fin 12) (r j : Fin 2048) :
    attnArr Q K (ix4 b h r j) = attnAt Q K b h r j := rfl

theorem outArr_ix4 (Q K V : Sqkv.Idx → EReal) (b : Fin 2) (h : Fin 12) (r : Fin 2048) (d : Fin 64) :
    outArr Q K V (ix4 b h r d) = outAt Q K V b h r d := rfl

end Cert.WindowAttn

end
-- ==== Proof.LibRowOps.lean ====
/-
  Row-wise operations of a two-axis vector, read at an index (program-independent; imports only the library).

  A reduction along the rows of an `[a, b]` vector that keeps the reduced axis as a unit axis passes through three
  operations: the reduction itself into `[a]`, a shape cast of that into the column `[a, 1]`, and a broadcast of the
  column back to `[a, b]`. Read at `(i, j)`, the cast column at `(i, 0)` is entry `i` of the reduced vector, and the
  broadcast column at `(i, j)` is the column's entry `(i, 0)`: the value depends on the row alone. At the ideal values
  the reduction at row `i` is the sum over `k` of the entries `(i, k)`, or the fold of `max` over them from the
  accumulator's value, in any order.
-/
import Idealize.ShloMosaic.Lib.ValueIdx
import Idealize.ShloMosaic.Lib.Pipeline.Value
import Idealize.ShloMosaic.PureOps.Ideal.Laws

noncomputable section

namespace Cert.RowOps

open Idealize.ShloMosaic Idealize.ShloMosaic.ValueIdx

variable {α : Type}

/-- An `[a]` vector cast to the column `[a, 1]` reads, at `(i, z)`, the operand's entry `i`: both sit at row-major
    position `i`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column's entry `(i, 0)`: the row is kept and
    the unit axis is read at its only coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      by_cases ha : a = 1
      · rw [if_pos ha]; have := i.isLt; omega
      · rw [if_neg ha]
    | ⟨1, _⟩ => by
      show 0 = if (1 : Nat) = 1 then 0 else j.val
      rw [if_pos rfl])

/-- The index over row `i` with coordinate `k` put back on the reduced axis is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext c; apply Fin.ext
  fin_cases c <;> rfl

/-- At the ideal values a sum along the rows of an `[a, b]` vector is, at row `i`, the sum of that row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- At the ideal values a maximum along the rows of an `[a, b]` vector is, at row `i`, the fold of `max` over that
    row's entries from the accumulator's value, in any order. -/
theorem multiReduction_maximumf_row {a b : ℕ} {φ : FTy} (X : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  rw [hf]
  rfl

end Cert.RowOps

end
-- ==== Proof.LibTransposedDot.lean ====
/-
  A matrix product with the right operand transposed, read at an index (program-independent; imports only the library).

  For the dimension numbers of the product of an `[M, K]` matrix by the TRANSPOSE of an `[N, K]` matrix — each
  operand's second axis contracted, no batch axis — the contraction index is one coordinate `k : Fin K`, the left
  operand is read at `(r, k)` and the right one at `(j, k)`. So at the ideal values both the kernel's matrix product
  into a zero accumulator and the host's general product are, at `(r, j)`, the sum over `k` of the products of the
  entries `(r, k)` and `(j, k)`: the inner product of row `r` of the left operand with row `j` of the right one.
-/
import Idealize.ShloMosaic.Lib.ValueIdx
import Idealize.ShloMosaic.PureOps.Ideal.Laws

noncomputable section

namespace Cert.TransposedDot

open Idealize.ShloMosaic Idealize.ShloMosaic.ValueIdx

/-- The contraction index of such a product is its one coordinate. -/
abbrev contrFin (M K N : ℕ) : (DotDims.transposedRhs M K N).contr.Idx ≃ Fin K :=
  contrEquiv1 (DotDims.transposedRhs M K N) K rfl rfl

/-- At output `(r, j)` and contraction coordinate `k` the left operand is read at `(r, k)`. -/
theorem lhsIdx_transposedRhs (M K N : ℕ) (r : Fin M) (j : Fin N) (k : Fin K) :
    (DotDims.transposedRhs M K N).lhsIdx (ix2 r j) ((contrFin M K N).symm k) = ix2 r k := by
  funext a; apply Fin.ext
  match a with
  | ⟨0, _⟩ => rfl
  | ⟨1, _⟩ =>
    refine ((DotDims.transposedRhs M K N).lhsIdx_val_of_single (cl := (1 : Fin 2)) rfl (ix2 r j) _).trans ?_
    exact contrEquiv1_symm_val (DotDims.transposedRhs M K N) K rfl rfl k

/-- At output `(r, j)` and contraction coordinate `k` the right operand is read at `(j, k)`. -/
theorem rhsIdx_transposedRhs (M K N : ℕ) (r : Fin M) (j : Fin N) (k : Fin K) :
    (DotDims.transposedRhs M K N).rhsIdx (ix2 r j) ((contrFin M K N).symm k) = ix2 j k := by
  funext a; apply Fin.ext
  match a with
  | ⟨0, _⟩ => rfl
  | ⟨1, _⟩ =>
    refine ((DotDims.transposedRhs M K N).rhsIdx_val_of_single (cr := (1 : Fin 2)) rfl (ix2 r j) _).trans ?_
    exact contrEquiv1_symm_val (DotDims.transposedRhs M K N) K rfl rfl k

/-- The contraction's sum of such a product at `(r, j)`, over the coordinate `k`. -/
theorem sum_transposedRhs {M K N : ℕ} (L : (⟨2, ![M, K]⟩ : Shape).Idx → EReal) (R : (⟨2, ![N, K]⟩ : Shape).Idx → EReal)
    (r : Fin M) (j : Fin N) :
    (∑ q : (DotDims.transposedRhs M K N).contr.Idx,
        L ((DotDims.transposedRhs M K N).lhsIdx (ix2 r j) q) * R ((DotDims.transposedRhs M K N).rhsIdx (ix2 r j) q))
      = ∑ k : Fin K, L (ix2 r k) * R (ix2 j k) := by
  rw [← Equiv.sum_comp (contrFin M K N).symm]
  exact Finset.sum_congr rfl fun k _ => by rw [lhsIdx_transposedRhs, rhsIdx_transposedRhs]

/-- At the ideal values the kernel's matrix product into the zero accumulator, read at `(r, j)`. -/
theorem matmul_transposedRhs_apply {M K N : ℕ} {φ₁ φ₂ : FTy} (prec : Option ContractPrecision)
    (lhs : FVec Ideal ⟨2, ![M, K]⟩ φ₁) (rhs : FVec Ideal ⟨2, ![N, K]⟩ φ₂) (r : Fin M) (j : Fin N) :
    FloatOps.matmul (DotDims.transposedRhs M K N) prec lhs rhs (constant ⟨2, ![M, N]⟩ .f32 0x00000000#32) (ix2 r j)
      = ∑ k : Fin K, lhs (ix2 r k) * rhs (ix2 j k) :=
  (Ideal.matmul_constant_zero_apply _ prec lhs rhs (ix2 r j)).trans (sum_transposedRhs lhs rhs r j)

/-- At the ideal values the host's general product, read at `(r, j)`. -/
theorem dotGeneral_transposedRhs_apply {M K N : ℕ} {φ₁ φ₂ : FTy} (prec : Option ContractPrecision) (sched : HostSchedule)
    (lhs : FVec Ideal ⟨2, ![M, K]⟩ φ₁) (rhs : FVec Ideal ⟨2, ![N, K]⟩ φ₂) (r : Fin M) (j : Fin N) :
    FloatOps.dotGeneral (DotDims.transposedRhs M K N) prec sched lhs rhs (ix2 r j)
      = ∑ k : Fin K, lhs (ix2 r k) * rhs (ix2 j k) :=
  (Ideal.dotGeneral_apply _ prec sched lhs rhs (ix2 r j)).trans (sum_transposedRhs lhs rhs r j)

end Cert.TransposedDot

end
-- ==== Proof.LibPlainDot.lean ====
/-
  A plain matrix product read at an index (program-independent; imports only the library).

  For the dimension numbers of an ordinary product of an `[M, K]` matrix by a `[K, N]` matrix — the left operand's
  second axis contracted with the right operand's first, no batch axis — the contraction index is one coordinate
  `k : Fin K`, the left operand is read at `(r, k)` and the right one at `(k, j)`. So at the ideal values both the
  kernel's matrix product into a zero accumulator and the host's general product are, at `(r, j)`, the sum over `k` of
  the products of the entries `(r, k)` and `(k, j)`.
-/
import Idealize.ShloMosaic.Lib.ValueIdx
import Idealize.ShloMosaic.PureOps.Ideal.Laws

noncomputable section

namespace Cert.PlainDot

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- At output `(r, j)` and contraction coordinate `k` the left operand is read at `(r, k)`. -/
theorem lhsIdx_plain (M K N : ℕ) (r : Fin M) (j : Fin N) (k : Fin K) :
    (DotDims.plain M K N).lhsIdx (ix2 r j) ((contrFin M K N).symm k) = ix2 r k := by
  funext a; apply Fin.ext
  match a with
  | ⟨0, _⟩ => rfl
  | ⟨1, _⟩ =>
    refine ((DotDims.plain M K N).lhsIdx_val_of_single (cl := (1 : Fin 2)) rfl (ix2 r j) _).trans ?_
    exact contrEquiv1_symm_val (DotDims.plain M K N) K rfl rfl k

/-- At output `(r, j)` and contraction coordinate `k` the right operand is read at `(k, j)`. -/
theorem rhsIdx_plain (M K N : ℕ) (r : Fin M) (j : Fin N) (k : Fin K) :
    (DotDims.plain M K N).rhsIdx (ix2 r j) ((contrFin M K N).symm k) = ix2 k j := by
  funext a; apply Fin.ext
  match a with
  | ⟨0, _⟩ =>
    refine ((DotDims.plain M K N).rhsIdx_val_of_single (cr := (0 : Fin 2)) rfl (ix2 r j) _).trans ?_
    exact contrEquiv1_symm_val (DotDims.plain M K N) K rfl rfl k
  | ⟨1, _⟩ => rfl

/-- The contraction's sum of a plain product at `(r, j)`, over the coordinate `k`. -/
theorem sum_plain {M K N : ℕ} (L : (⟨2, ![M, K]⟩ : Shape).Idx → EReal) (R : (⟨2, ![K, N]⟩ : Shape).Idx → EReal)
    (r : Fin M) (j : Fin N) :
    (∑ q : (DotDims.plain M K N).contr.Idx,
        L ((DotDims.plain M K N).lhsIdx (ix2 r j) q) * R ((DotDims.plain M K N).rhsIdx (ix2 r j) q))
      = ∑ k : Fin K, L (ix2 r k) * R (ix2 k j) := by
  rw [← Equiv.sum_comp (contrFin M K N).symm]
  exact Finset.sum_congr rfl fun k _ => by rw [lhsIdx_plain, rhsIdx_plain]

/-- At the ideal values the kernel's matrix product into the zero accumulator, read at `(r, j)`. -/
theorem matmul_plain_apply {M K N : ℕ} {φ₁ φ₂ : FTy} (prec : Option ContractPrecision)
    (lhs : FVec Ideal ⟨2, ![M, K]⟩ φ₁) (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) :=
  (Ideal.matmul_constant_zero_apply _ prec lhs rhs (ix2 r j)).trans (sum_plain lhs rhs r j)

/-- At the ideal values the host's general product, read at `(r, j)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j)
      = ∑ k : Fin K, lhs (ix2 r k) * rhs (ix2 k j) :=
  (Ideal.dotGeneral_apply _ prec sched lhs rhs (ix2 r j)).trans (sum_plain lhs rhs r j)

end Cert.PlainDot

end
-- ==== Proof.LibUnitBlock.lean ====
/-
  Blocks with two leading unit axes, as matrices (program-independent; imports only the library).

  A window whose block keeps two squeezed leading axes holds a `[1, 1, a, b]` array that the body casts to the matrix
  `[a, b]` after loading and back before storing. Both casts keep the row-major position `p · b + d`, so the matrix's
  entry `(p, d)` is the block's entry `(0, 0, p, d)` and conversely, for any element type and extents.
-/
import Idealize.ShloMosaic.Lib.ValueIdx
import Idealize.ShloMosaic.Lib.Pipeline.Value

noncomputable section

namespace Cert.UnitBlock

open Idealize.ShloMosaic Idealize.ShloMosaic.ValueIdx

/-- A block `[1, 1, a, b]` cast to the matrix `[a, b]` reads, at `(p, d)`, the block's entry `(0, 0, p, d)`: both sit
    at row-major position `p · b + d`. -/
theorem cast_block_apply {α : Type} {a b : ℕ} (x : (⟨4, ![1, 1, a, b]⟩ : Shape).Idx → α)
    (h : (⟨4, ![1, 1, a, b]⟩ : Shape).ShapeCasts ⟨2, ![a, b]⟩) (p : Fin a) (d : Fin b) :
    shapeCast ⟨2, ![a, b]⟩ x h (ix2 p d) = x (ix4 (0 : Fin 1) (0 : Fin 1) p d) :=
  shapeCast_apply x h _ _ (by
    rw [Shape.rowMajor_val_four, Shape.rowMajor_val_two]
    show ((0 * 1 + 0) * a + p.val) * b + d.val = p.val * b + d.val
    simp)

/-- A matrix `[a, b]` cast to the block `[1, 1, a, b]` reads, at `(0, 0, p, d)`, the matrix's entry `(p, d)`. -/
theorem cast_matrix_apply {α : Type} {a b : ℕ} (x : (⟨2, ![a, b]⟩ : Shape).Idx → α)
    (h : (⟨2, ![a, b]⟩ : Shape).ShapeCasts ⟨4, ![1, 1, a, b]⟩) (p : Fin a) (d : Fin b) :
    shapeCast ⟨4, ![1, 1, a, b]⟩ x h (ix4 (0 : Fin 1) (0 : Fin 1) p d) = x (ix2 p d) :=
  shapeCast_apply x h _ _ (by
    rw [Shape.rowMajor_val_four, Shape.rowMajor_val_two]
    show p.val * b + d.val = ((0 * 1 + 0) * a + p.val) * b + d.val
    simp)

end Cert.UnitBlock

end
-- ==== Proof.BodyAtIndex.lean ====
/-
  The kernel body's two stored values, read at an index, at the ideal values.

  At a grid point the body holds one block of 256 query rows, and all 2048 key rows and value rows of one head. The
  scores of the block are the product of the query block with the transposed key block, times 1/8; row p of the block is
  query position p + 256·(the point's third coordinate), computed on 32-bit words, and the window mask compares the key
  position's word with that row word. Each row of masked scores is normalised (maximum from -∞, exponentials, sum from
  zero, quotient): the quotients are the block of attention weights that is stored, and their product with the value
  rows is the block of outputs that is stored. A change of float format is the identity at the ideal values, and a
  matrix product into the zero accumulator is the plain sum over the contracted coordinate.
-/
import proofs.«181524_j56813827391596_1_alg».proof.Proof.Gen.KernelIdeal.Skeleton
import proofs.«181524_j56813827391596_1_alg».proof.Proof.WindowAttn
import proofs.«181524_j56813827391596_1_alg».proof.Proof.LibRowOps
import proofs.«181524_j56813827391596_1_alg».proof.Proof.LibTransposedDot
import proofs.«181524_j56813827391596_1_alg».proof.Proof.LibPlainDot
import proofs.«181524_j56813827391596_1_alg».proof.Proof.LibUnitBlock
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen Cert.WindowAttn Cert.UnitBlock
open Idealize.ShloMosaic Idealize.ShloMosaic.ValueIdx

/-! ## The masked scores of a block -/

/-- The position word of row `p` of the query block at grid coordinates `i`: `p + 256 · i₂` on 32-bit words. -/
def rowWord (i : grid0.Coords) (p : Fin 256) : BitVec 32 :=
  IntOp.addi (BitVec.ofNat 32 p.val) (Scalar.muli (BitVec.ofNat 32 (i 2).val) 256#32)

/-- Row `p` of the block's masked scores, as a function of the key position: `scoreRow` of the row's word, the
    query block's row `p` and the key block's rows. -/
def blockScores (i : grid0.Coords) (x0 : Vec Ideal S1x1x256x64 .f32) (x1 : Vec Ideal S1x1x2048x64 .f32) (p : Fin 256) :
    Fin 2048 → EReal :=
  scoreRow (rowWord i p) (fun d => x0 (ix4 (0 : Fin 1) (0 : Fin 1) p d)) (fun j' d => x1 (ix4 (0 : Fin 1) (0 : Fin 1) j' d))

/-- The block's masked scores as the body computes them: the product of the query block with the transposed key
    block, scaled, kept inside the window and replaced by -∞ outside it. -/
def maskedScores (i : grid0.Coords) (x0 : Vec Ideal S1x1x256x64 .f32) (x1 : Vec Ideal S1x1x2048x64 .f32) :
    FVec Ideal S256x2048 .f32 :=
  select
    (andi
      (cmpi .sge (iota .tc S256x2048 32 [1] iota_S256x2048_d1_w32)
        (subi (addi (iota .tc S256x2048 32 [0] iota_S256x2048_d0_w32)
          (broadcast S256x2048 (Scalar.muli (BitVec.ofNat 32 (i 2).val) 256#32))) (broadcast S256x2048 64#32)))
      (cmpi .slt (iota .tc S256x2048 32 [1] iota_S256x2048_d1_w32)
        (addi (addi (iota .tc S256x2048 32 [0] iota_S256x2048_d0_w32)
          (broadcast S256x2048 (Scalar.muli (BitVec.ofNat 32 (i 2).val) 256#32))) (broadcast S256x2048 64#32))))
    (mulf
      (matmul dot_S256x64_S2048x64_S256x2048_1_1_0_0_n_n none
        (truncf .bf16 (shapeCast S256x64 x0 shapeCasts_S1x1x256x64_S256x64) bitsLt_bf16_f32)
        (truncf .bf16 (shapeCast S2048x64 x1 shapeCasts_S1x1x2048x64_S2048x64) bitsLt_bf16_f32)
        (constant (F := Ideal) S256x2048 .f32 0x00000000#32))
      (broadcast S256x2048 (Scalar.ofBits (F := Ideal) .f32 0x3E000000#32)))
    (broadcast S256x2048 (Scalar.ofBits (F := Ideal) .f32 0xFF800000#32))

/-- The scaled product at `(p, k)` is the inner product of query row `p` with key row `k`. -/
theorem product_apply (x0 : Vec Ideal S1x1x256x64 .f32) (x1 : Vec Ideal S1x1x2048x64 .f32) (p : Fin 256) (k : Fin 2048) :
    matmul dot_S256x64_S2048x64_S256x2048_1_1_0_0_n_n none
        (truncf .bf16 (shapeCast S256x64 x0 shapeCasts_S1x1x256x64_S256x64) bitsLt_bf16_f32)
        (truncf .bf16 (shapeCast S2048x64 x1 shapeCasts_S1x1x2048x64_S2048x64) bitsLt_bf16_f32)
        (constant (F := Ideal) S256x2048 .f32 0x00000000#32) (ix2 p k)
      = ∑ d : Fin 64, x0 (ix4 (0 : Fin 1) (0 : Fin 1) p d) * x1 (ix4 (0 : Fin 1) (0 : Fin 1) k d) := by
  refine (Cert.TransposedDot.matmul_transposedRhs_apply (M := 256) (K := 64) (N := 2048) (φ₁ := .bf16) (φ₂ := .bf16) none
    (truncf .bf16 (shapeCast S256x64 x0 shapeCasts_S1x1x256x64_S256x64) bitsLt_bf16_f32)
    (truncf .bf16 (shapeCast S2048x64 x1 shapeCasts_S1x1x2048x64_S2048x64) bitsLt_bf16_f32) p k).trans ?_
  refine Finset.sum_congr rfl fun d _ => ?_
  show shapeCast S256x64 x0 shapeCasts_S1x1x256x64_S256x64 (ix2 p d)
      * shapeCast S2048x64 x1 shapeCasts_S1x1x2048x64_S2048x64 (ix2 k d) = _
  rw [cast_block_apply, cast_block_apply]

/-- The masked scores at `(p, k)`. -/
theorem maskedScores_apply (i : grid0.Coords) (x0 : Vec Ideal S1x1x256x64 .f32) (x1 : Vec Ideal S1x1x2048x64 .f32)
    (p : Fin 256) (k : Fin 2048) : maskedScores i x0 x1 (ix2 p k) = blockScores i x0 x1 p k := by
  have hcol : iota .tc S256x2048 32 [1] iota_S256x2048_d1_w32 (ix2 p k) = BitVec.ofNat 32 k.val := by
    show BitVec.ofNat 32 (0 * 2048 + k.val) = _
    rw [Nat.zero_mul, Nat.zero_add]
  have hrow : iota .tc S256x2048 32 [0] iota_S256x2048_d0_w32 (ix2 p k) = BitVec.ofNat 32 p.val := by
    show BitVec.ofNat 32 (0 * 256 + p.val) = _
    rw [Nat.zero_mul, Nat.zero_add]
  show Scalar.select
      (IntOp.andi
        (IntOp.cmpi .sge (iota .tc S256x2048 32 [1] iota_S256x2048_d1_w32 (ix2 p k))
          (IntOp.subi (IntOp.addi (iota .tc S256x2048 32 [0] iota_S256x2048_d0_w32 (ix2 p k))
            (Scalar.muli (BitVec.ofNat 32 (i 2).val) 256#32)) 64#32))
        (IntOp.cmpi .slt (iota .tc S256x2048 32 [1] iota_S256x2048_d1_w32 (ix2 p k))
          (IntOp.addi (IntOp.addi (iota .tc S256x2048 32 [0] iota_S256x2048_d0_w32 (ix2 p k))
            (Scalar.muli (BitVec.ofNat 32 (i 2).val) 256#32)) 64#32)))
      (matmul dot_S256x64_S2048x64_S256x2048_1_1_0_0_n_n none
          (truncf .bf16 (shapeCast S256x64 x0 shapeCasts_S1x1x256x64_S256x64) bitsLt_bf16_f32)
          (truncf .bf16 (shapeCast S2048x64 x1 shapeCasts_S1x1x2048x64_S2048x64) bitsLt_bf16_f32)
          (constant (F := Ideal) S256x2048 .f32 0x00000000#32) (ix2 p k)
        * Ideal.ofBits .f32 0x3E000000#32)
      (Ideal.ofBits .f32 0xFF800000#32) = _
  rw [hcol, hrow, product_apply]
  rfl

/-! ## A row's normalisation -/

variable (S : FVec Ideal S256x2048 .f32)

/-- The maximum along the rows, joined with -∞, kept as a column and spread back over the row: at `(p, j)` it is the
    maximum of row `p`. -/
theorem spreadMax_apply (p : Fin 256) (j : Fin 2048) :
    broadcastTo S256x2048
        (shapeCast S256x1
          (maximumf (broadcast S256 (Scalar.ofBits (F := Ideal) .f32 0xFF800000#32))
            (multiReduction .maximumf [1] S256 S 0xFF800000#32 reduces_S256x2048_S256 (.inl rfl) rfl))
          shapeCasts_S256_S256x1)
        broadcasts_S256x1_S256x2048 (ix2 p j)
      = rowMax (fun k => S (ix2 p k)) := by
  refine (Cert.RowOps.broadcastTo_a1_ab_apply _ broadcasts_S256x1_S256x2048 p j).trans ?_
  refine (Cert.RowOps.shapeCast_a_a1_apply _ shapeCasts_S256_S256x1 p (0 : Fin 1)).trans ?_
  show max (Ideal.ofBits .f32 0xFF800000#32)
      (multiReduction .maximumf [1] S256 S 0xFF800000#32 reduces_S256x2048_S256 (.inl rfl) rfl (ix1 p)) = _
  rw [Cert.RowOps.multiReduction_maximumf_row S 0xFF800000#32 reduces_S256x2048_S256 (.inl rfl) rfl p]
  rfl

/-- The exponentials of the scores less their rows' maxima, as the body computes them. -/
def expScores : FVec Ideal S256x2048 .f32 :=
  exp (subf S
    (broadcastTo S256x2048
      (shapeCast S256x1
        (maximumf (broadcast S256 (Scalar.ofBits (F := Ideal) .f32 0xFF800000#32))
          (multiReduction .maximumf [1] S256 S 0xFF800000#32 reduces_S256x2048_S256 (.inl rfl) rfl))
        shapeCasts_S256_S256x1)
      broadcasts_S256x1_S256x2048))

theorem expScores_apply (p : Fin 256) (j : Fin 2048) :
    expScores S (ix2 p j) = rowExp (fun k => S (ix2 p k)) j := by
  show Ideal.exp (S (ix2 p j) - broadcastTo S256x2048
      (shapeCast S256x1
        (maximumf (broadcast S256 (Scalar.ofBits (F := Ideal) .f32 0xFF800000#32))
          (multiReduction .maximumf [1] S256 S 0xFF800000#32 reduces_S256x2048_S256 (.inl rfl) rfl))
        shapeCasts_S256_S256x1)
      broadcasts_S256x1_S256x2048 (ix2 p j)) = _
  rw [spreadMax_apply]
  rfl

/-- The rows' sums of exponentials, from zero, kept as a column and spread back over the row. -/
def spreadSums (E : FVec Ideal S256x2048 .f32) : FVec Ideal S256x2048 .f32 :=
  broadcastTo S256x2048
    (shapeCast S256x1 (multiReduction .add [1] S256 E 0x00000000#32 reduces_S256x2048_S256 (.inl rfl) rfl)
      shapeCasts_S256_S256x1)
    broadcasts_S256x1_S256x2048

theorem spreadSums_apply (E : FVec Ideal S256x2048 .f32) (p : Fin 256) (j : Fin 2048) :
    spreadSums E (ix2 p j) = ∑ k : Fin 2048, E (ix2 p k) := by
  refine (Cert.RowOps.broadcastTo_a1_ab_apply _ broadcasts_S256x1_S256x2048 p j).trans ?_
  refine (Cert.RowOps.shapeCast_a_a1_apply _ shapeCasts_S256_S256x1 p (0 : Fin 1)).trans ?_
  exact Cert.RowOps.multiReduction_add_row E 0x00000000#32 reduces_S256x2048_S256 (.inl rfl) rfl p

/-- The sum of a row's exponentials from zero is the sum alone. -/
theorem rowSum_eq (s : Fin 2048 → EReal) : rowSum s = ∑ k : Fin 2048, rowExp s k := by
  unfold rowSum
  rw [Ideal.ofBits_zero_f32, zero_add]

/-! ## The two stored values -/

/-- The exponentials the body computes are those of the block's masked scores. -/
theorem pay5_eq (i : grid0.Coords) (x0 : Vec Ideal S1x1x256x64 .f32) (x1 : Vec Ideal S1x1x2048x64 .f32) :
    k0_pay5 (F := Ideal) i x0 x1 = expScores (maskedScores i x0 x1) := rfl

/-- The spread row sums the body computes. -/
theorem pay6_eq (i : grid0.Coords) (x0 : Vec Ideal S1x1x256x64 .f32) (x1 : Vec Ideal S1x1x2048x64 .f32) :
    k0_pay6 (F := Ideal) i x0 x1 = spreadSums (k0_pay5 (F := Ideal) i x0 x1) := rfl

theorem pay5_apply (i : grid0.Coords) (x0 : Vec Ideal S1x1x256x64 .f32) (x1 : Vec Ideal S1x1x2048x64 .f32)
    (p : Fin 256) (j : Fin 2048) : k0_pay5 (F := Ideal) i x0 x1 (ix2 p j) = rowExp (blockScores i x0 x1 p) j := by
  rw [pay5_eq, expScores_apply]
  exact congrArg (fun s => rowExp s j) (funext fun k => maskedScores_apply i x0 x1 p k)

theorem pay6_apply (i : grid0.Coords) (x0 : Vec Ideal S1x1x256x64 .f32) (x1 : Vec Ideal S1x1x2048x64 .f32)
    (p : Fin 256) (j : Fin 2048) : k0_pay6 (F := Ideal) i x0 x1 (ix2 p j) = rowSum (blockScores i x0 x1 p) := by
  rw [pay6_eq, spreadSums_apply, rowSum_eq]
  exact Finset.sum_congr rfl fun k _ => pay5_apply i x0 x1 p k

/-- The weights of the block at `(p, j)`: the softmax of row `p`'s masked scores. -/
theorem weights_apply (i : grid0.Coords) (x0 : Vec Ideal S1x1x256x64 .f32) (x1 : Vec Ideal S1x1x2048x64 .f32)
    (p : Fin 256) (j : Fin 2048) :
    k0_pay1 (F := Ideal) (k0_pay5 i x0 x1) (k0_pay6 i x0 x1) (ix2 p j) = softmaxRow (blockScores i x0 x1 p) j := by
  show Ideal.div (k0_pay5 (F := Ideal) i x0 x1 (ix2 p j)) (k0_pay6 (F := Ideal) i x0 x1 (ix2 p j)) = _
  rw [pay5_apply, pay6_apply]
  rfl

/-- THE STORED WEIGHTS at `(0, 0, p, j)` of the block. -/
theorem storedWeights_apply (i : grid0.Coords) (x0 : Vec Ideal S1x1x256x64 .f32) (x1 : Vec Ideal S1x1x2048x64 .f32)
    (p : Fin 256) (j : Fin 2048) :
    k0_pay2 (F := Ideal) (k0_pay5 i x0 x1) (k0_pay6 i x0 x1) (ix4 (0 : Fin 1) (0 : Fin 1) p j)
      = softmaxRow (blockScores i x0 x1 p) j := by
  show shapeCast S1x1x256x2048 (k0_pay1 (F := Ideal) (k0_pay5 i x0 x1) (k0_pay6 i x0 x1)) shapeCasts_S256x2048_S1x1x256x2048
      (ix4 (0 : Fin 1) (0 : Fin 1) p j) = _
  rw [cast_matrix_apply, weights_apply]

/-- THE STORED OUTPUTS at `(0, 0, p, d)` of the block: the weights of row `p` against feature `d` of the value rows. -/
theorem storedOutputs_apply (i : grid0.Coords) (x0 : Vec Ideal S1x1x256x64 .f32) (x1 x2 : Vec Ideal S1x1x2048x64 .f32)
    (p : Fin 256) (d : Fin 64) :
    k0_pay3 (F := Ideal) (k0_pay4 x2) (k0_pay5 i x0 x1) (k0_pay6 i x0 x1) (ix4 (0 : Fin 1) (0 : Fin 1) p d)
      = ∑ j : Fin 2048, softmaxRow (blockScores i x0 x1 p) j * x2 (ix4 (0 : Fin 1) (0 : Fin 1) j d) := by
  show shapeCast S1x1x256x64
      (matmul dot_S256x2048_S2048x64_S256x64_1_0_0_1_n_n none
        (truncf .bf16 (k0_pay1 (F := Ideal) (k0_pay5 i x0 x1) (k0_pay6 i x0 x1)) bitsLt_bf16_f32)
        (truncf .bf16 (shapeCast S2048x64 x2 shapeCasts_S1x1x2048x64_S2048x64) bitsLt_bf16_f32)
        (constant (F := Ideal) S256x64 .f32 0x00000000#32))
      shapeCasts_S256x64_S1x1x256x64 (ix4 (0 : Fin 1) (0 : Fin 1) p d) = _
  rw [cast_matrix_apply]
  refine (Cert.PlainDot.matmul_plain_apply (M := 256) (K := 2048) (N := 64) (φ₁ := .bf16) (φ₂ := .bf16) none
    (truncf .bf16 (k0_pay1 (F := Ideal) (k0_pay5 i x0 x1) (k0_pay6 i x0 x1)) bitsLt_bf16_f32)
    (truncf .bf16 (shapeCast S2048x64 x2 shapeCasts_S1x1x2048x64_S2048x64) bitsLt_bf16_f32) p d).trans ?_
  refine Finset.sum_congr rfl fun j _ => ?_
  show k0_pay1 (F := Ideal) (k0_pay5 i x0 x1) (k0_pay6 i x0 x1) (ix2 p j)
      * shapeCast S2048x64 x2 shapeCasts_S1x1x2048x64_S2048x64 (ix2 j d) = _
  rw [weights_apply, cast_block_apply]

end Cert.KernelIdeal.BodyValue

end
-- ==== Proof.KernelArrays.lean ====
/-
  From blocks to arrays: after the kernel's run the two result arrays are the sliding-window attention arrays.

  The grid has one point per batch entry b, head h and block qi of 256 query rows. At that point the query window holds
  rows qi·256 … qi·256 + 255 of (b, h), the key and value windows hold all 2048 rows of (b, h), and the two output
  windows are written back to rows qi·256 … qi·256 + 255 of (b, h) of their arrays. So what the point writes back is the
  block of the attention arrays at those rows: row p of the block is query position qi·256 + p, whose word is the row
  word the body builds from the point's third coordinate. Every index (b, h, r, ·) of a result array lies in the block
  of the point (b, h, r / 256), so the blocks cover the arrays and each array ends holding the attention array.
-/
import proofs.«181524_j56813827391596_1_alg».proof.Proof.KernelIdealFrameP
import proofs.«181524_j56813827391596_1_alg».proof.Proof.BodyAtIndex
import proofs.«181524_j56813827391596_1_alg».proof.Proof.WindowAttn
import Idealize.ShloMosaic.Lib.Pipeline.Value
import Idealize.ShloMosaic.Lib.ValueIdx

set_option maxRecDepth 16384

noncomputable section

namespace Cert.KernelIdeal.ArrayValue

open Cert.KernelIdeal Cert.KernelIdeal.Gen Cert.KernelIdeal.GenP Cert.KernelIdeal.BodyValue Cert.WindowAttn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0, 0, 0] : Fin 4 → Nat) = fun _ => 0 := funext fun a => by fin_cases a <;> rfl

/-! ## Where each window's block sits, decided over the grid -/

/-- The block indices of the five windows at a point, in terms of the point's coordinates (b, h, qi): the query and
    the two output windows sit at (b, h, qi, 0), the key and value windows at (b, h, 0, 0). -/
theorem block_indices : ∀ t : Fin cfg0.N,
    (win0_0.index t (0 : Fin 4) = (grid0.coords t (0 : Fin 3)).val ∧ win0_0.index t (1 : Fin 4) = (grid0.coords t (1 : Fin 3)).val
      ∧ win0_0.index t (2 : Fin 4) = (grid0.coords t (2 : Fin 3)).val ∧ win0_0.index t (3 : Fin 4) = 0)
    ∧ (win0_1.index t (0 : Fin 4) = (grid0.coords t (0 : Fin 3)).val ∧ win0_1.index t (1 : Fin 4) = (grid0.coords t (1 : Fin 3)).val
      ∧ win0_1.index t (2 : Fin 4) = 0 ∧ win0_1.index t (3 : Fin 4) = 0)
    ∧ (win0_2.index t (0 : Fin 4) = (grid0.coords t (0 : Fin 3)).val ∧ win0_2.index t (1 : Fin 4) = (grid0.coords t (1 : Fin 3)).val
      ∧ win0_2.index t (2 : Fin 4) = 0 ∧ win0_2.index t (3 : Fin 4) = 0)
    ∧ (win0_3.index t (0 : Fin 4) = (grid0.coords t (0 : Fin 3)).val ∧ win0_3.index t (1 : Fin 4) = (grid0.coords t (1 : Fin 3)).val
      ∧ win0_3.index t (2 : Fin 4) = (grid0.coords t (2 : Fin 3)).val ∧ win0_3.index t (3 : Fin 4) = 0)
    ∧ (win0_4.index t (0 : Fin 4) = (grid0.coords t (0 : Fin 3)).val ∧ win0_4.index t (1 : Fin 4) = (grid0.coords t (1 : Fin 3)).val
      ∧ win0_4.index t (2 : Fin 4) = (grid0.coords t (2 : Fin 3)).val ∧ win0_4.index t (3 : Fin 4) = 0) :=
  (by decide +kernel : ∀ t : Fin grid0.N, _)

/-- Every triple (b, h, qi) is some point's coordinates. -/
theorem point_of : ∀ (b : Fin 2) (h : Fin 12) (qi : Fin 8), ∃ t : Fin cfg0.N,
    (grid0.coords t (0 : Fin 3)).val = b.val ∧ (grid0.coords t (1 : Fin 3)).val = h.val ∧ (grid0.coords t (2 : Fin 3)).val = qi.val :=
  (by decide +kernel : ∀ (b : Fin 2) (h : Fin 12) (qi : Fin 8), ∃ t : Fin grid0.N,
    (grid0.coords t (0 : Fin 3)).val = b.val ∧ (grid0.coords t (1 : Fin 3)).val = h.val ∧ (grid0.coords t (2 : Fin 3)).val = qi.val)

/-- The batch entry, the head and the row block of a point. -/
def pb (t : Fin cfg0.N) : Fin 2 := ⟨(grid0.coords t (0 : Fin 3)).val, (grid0.coords t (0 : Fin 3)).isLt⟩
def ph (t : Fin cfg0.N) : Fin 12 := ⟨(grid0.coords t (1 : Fin 3)).val, (grid0.coords t (1 : Fin 3)).isLt⟩
def pq (t : Fin cfg0.N) : Fin 8 := ⟨(grid0.coords t (2 : Fin 3)).val, (grid0.coords t (2 : Fin 3)).isLt⟩

/-- Query position of row `p` of row block `qi`. -/
def rowOf (qi : Fin 8) (p : Fin 256) : Fin 2048 := ⟨qi.val * 256 + p.val, by have := qi.isLt; have := p.isLt; omega⟩

/-! ## The blocks' entries in their arrays -/

/-- Entry (0, 0, p, d) of the query block at point `t` is the array's entry (b, h, qi·256 + p, d). -/
theorem queryBlock_pos (t : Fin cfg0.N) (p : Fin 256) (d : Fin 64) :
    ((cfg0.win 0).blk t).view.emb (ix4 (0 : Fin 1) (0 : Fin 1) p d) = ix4 (pb t) (ph t) (rowOf (pq t) p) d := by
  obtain ⟨⟨e0, e1, e2, e3⟩, -⟩ := block_indices t
  funext a; apply Fin.ext
  match a with
  | ⟨0, _⟩ => show win0_0.index t (0 : Fin 4) * 1 + 1 * 0 = (grid0.coords t (0 : Fin 3)).val; omega
  | ⟨1, _⟩ => show win0_0.index t (1 : Fin 4) * 1 + 1 * 0 = (grid0.coords t (1 : Fin 3)).val; omega
  | ⟨2, _⟩ => show win0_0.index t (2 : Fin 4) * 256 + 1 * p.val = (grid0.coords t (2 : Fin 3)).val * 256 + p.val; omega
  | ⟨3, _⟩ => show win0_0.index t (3 : Fin 4) * 64 + 1 * d.val = d.val; omega

/-- Entry (0, 0, j, d) of the key block at point `t` is the array's entry (b, h, j, d). -/
theorem keyBlock_pos (t : Fin cfg0.N) (j : Fin 2048) (d : Fin 64) :
    ((cfg0.win 1).blk t).view.emb (ix4 (0 : Fin 1) (0 : Fin 1) j d) = ix4 (pb t) (ph t) j d := by
  obtain ⟨-, ⟨e0, e1, e2, e3⟩, -⟩ := block_indices t
  funext a; apply Fin.ext
  match a with
  | ⟨0, _⟩ => show win0_1.index t (0 : Fin 4) * 1 + 1 * 0 = (grid0.coords t (0 : Fin 3)).val; omega
  | ⟨1, _⟩ => show win0_1.index t (1 : Fin 4) * 1 + 1 * 0 = (grid0.coords t (1 : Fin 3)).val; omega
  | ⟨2, _⟩ => show win0_1.index t (2 : Fin 4) * 2048 + 1 * j.val = j.val; omega
  | ⟨3, _⟩ => show win0_1.index t (3 : Fin 4) * 64 + 1 * d.val = d.val; omega

/-- Entry (0, 0, j, d) of the value block at point `t` is the array's entry (b, h, j, d). -/
theorem valueBlock_pos (t : Fin cfg0.N) (j : Fin 2048) (d : Fin 64) :
    ((cfg0.win 2).blk t).view.emb (ix4 (0 : Fin 1) (0 : Fin 1) j d) = ix4 (pb t) (ph t) j d := by
  obtain ⟨-, -, ⟨e0, e1, e2, e3⟩, -⟩ := block_indices t
  funext a; apply Fin.ext
  match a with
  | ⟨0, _⟩ => show win0_2.index t (0 : Fin 4) * 1 + 1 * 0 = (grid0.coords t (0 : Fin 3)).val; omega
  | ⟨1, _⟩ => show win0_2.index t (1 : Fin 4) * 1 + 1 * 0 = (grid0.coords t (1 : Fin 3)).val; omega
  | ⟨2, _⟩ => show win0_2.index t (2 : Fin 4) * 2048 + 1 * j.val = j.val; omega
  | ⟨3, _⟩ => show win0_2.index t (3 : Fin 4) * 64 + 1 * d.val = d.val; omega

/-- Entry (0, 0, p, d) of the output block at point `t` is the array's entry (b, h, qi·256 + p, d). -/
theorem outBlock_pos (t : Fin cfg0.N) (p : Fin 256) (d : Fin 64) :
    ((cfg0.win 3).blk t).view.emb (ix4 (0 : Fin 1) (0 : Fin 1) p d) = ix4 (pb t) (ph t) (rowOf (pq t) p) d := by
  obtain ⟨-, -, -, ⟨e0, e1, e2, e3⟩, -⟩ := block_indices t
  funext a; apply Fin.ext
  match a with
  | ⟨0, _⟩ => show win0_3.index t (0 : Fin 4) * 1 + 1 * 0 = (grid0.coords t (0 : Fin 3)).val; omega
  | ⟨1, _⟩ => show win0_3.index t (1 : Fin 4) * 1 + 1 * 0 = (grid0.coords t (1 : Fin 3)).val; omega
  | ⟨2, _⟩ => show win0_3.index t (2 : Fin 4) * 256 + 1 * p.val = (grid0.coords t (2 : Fin 3)).val * 256 + p.val; omega
  | ⟨3, _⟩ => show win0_3.index t (3 : Fin 4) * 64 + 1 * d.val = d.val; omega

/-- Entry (0, 0, p, j) of the weights block at point `t` is the array's entry (b, h, qi·256 + p, j). -/
theorem weightsBlock_pos (t : Fin cfg0.N) (p : Fin 256) (j : Fin 2048) :
    ((cfg0.win 4).blk t).view.emb (ix4 (0 : Fin 1) (0 : Fin 1) p j) = ix4 (pb t) (ph t) (rowOf (pq t) p) j := by
  obtain ⟨-, -, -, -, ⟨e0, e1, e2, e3⟩⟩ := block_indices t
  funext a; apply Fin.ext
  match a with
  | ⟨0, _⟩ => show win0_4.index t (0 : Fin 4) * 1 + 1 * 0 = (grid0.coords t (0 : Fin 3)).val; omega
  | ⟨1, _⟩ => show win0_4.index t (1 : Fin 4) * 1 + 1 * 0 = (grid0.coords t (1 : Fin 3)).val; omega
  | ⟨2, _⟩ => show win0_4.index t (2 : Fin 4) * 256 + 1 * p.val = (grid0.coords t (2 : Fin 3)).val * 256 + p.val; omega
  | ⟨3, _⟩ => show win0_4.index t (3 : Fin 4) * 2048 + 1 * j.val = j.val; omega

/-! ## What a point computes, in terms of the arrays -/

/-- The row word the body builds for row `p` at coordinates `i` is the word of position `i₂ · 256 + p`. -/
theorem rowWord_eq (i : grid0.Coords) (p : Fin 256) : rowWord i p = BitVec.ofNat 32 ((i 2).val * 256 + p.val) := by
  show BitVec.ofNat 32 p.val + BitVec.ofNat 32 (i 2).val * BitVec.ofNat 32 256 = _
  rw [BitVec.ofNat_add, BitVec.ofNat_mul, BitVec.add_comm]

/-- Over blocks that hold the rows of (b, h) — the query block those of row block `qi` —, row `p`'s masked scores are
    those of query position `qi·256 + p`. -/
theorem blockScores_eq (Q K : Sqkv.Idx → EReal) (i : grid0.Coords) (x0 : Vec Ideal S1x1x256x64 .f32)
    (x1 : Vec Ideal S1x1x2048x64 .f32) (b : Fin 2) (h : Fin 12) (qi : Fin 8) (hi : (i 2).val = qi.val)
    (hx0 : ∀ (p : Fin 256) (d : Fin 64), x0 (ix4 (0 : Fin 1) (0 : Fin 1) p d) = Q (ix4 b h (rowOf qi p) d))
    (hx1 : ∀ (j : Fin 2048) (d : Fin 64), x1 (ix4 (0 : Fin 1) (0 : Fin 1) j d) = K (ix4 b h j d)) (p : Fin 256) :
    blockScores i x0 x1 p
      = scoreRow (BitVec.ofNat 32 (rowOf qi p).val) (fun d => Q (ix4 b h (rowOf qi p) d)) (fun j' d => K (ix4 b h j' d)) := by
  unfold blockScores
  rw [rowWord_eq, hi]
  have e0 : (fun d => x0 (ix4 (0 : Fin 1) (0 : Fin 1) p d)) = fun d => Q (ix4 b h (rowOf qi p) d) := funext fun d => hx0 p d
  have e1 : (fun j' d => x1 (ix4 (0 : Fin 1) (0 : Fin 1) j' d)) = fun j' d => K (ix4 b h j' d) :=
    funext fun j' => funext fun d => hx1 j' d
  rw [e0, e1]
  rfl

/-- The stored weights of such a point are the attention weights of its rows. -/
theorem weights_point (Q K : Sqkv.Idx → EReal) (i : grid0.Coords) (x0 : Vec Ideal S1x1x256x64 .f32)
    (x1 : Vec Ideal S1x1x2048x64 .f32) (b : Fin 2) (h : Fin 12) (qi : Fin 8) (hi : (i 2).val = qi.val)
    (hx0 : ∀ (p : Fin 256) (d : Fin 64), x0 (ix4 (0 : Fin 1) (0 : Fin 1) p d) = Q (ix4 b h (rowOf qi p) d))
    (hx1 : ∀ (j : Fin 2048) (d : Fin 64), x1 (ix4 (0 : Fin 1) (0 : Fin 1) j d) = K (ix4 b h j d)) (p : Fin 256) (j : Fin 2048) :
    k0_pay2 (F := Ideal) (k0_pay5 i x0 x1) (k0_pay6 i x0 x1) (ix4 (0 : Fin 1) (0 : Fin 1) p j)
      = attnAt Q K b h (rowOf qi p) j := by
  rw [storedWeights_apply, blockScores_eq Q K i x0 x1 b h qi hi hx0 hx1 p]
  rfl

/-- The stored outputs of such a point are the attention outputs of its rows. -/
theorem outputs_point (Q K V : Sqkv.Idx → EReal) (i : grid0.Coords) (x0 : Vec Ideal S1x1x256x64 .f32)
    (x1 x2 : Vec Ideal S1x1x2048x64 .f32) (b : Fin 2) (h : Fin 12) (qi : Fin 8) (hi : (i 2).val = qi.val)
    (hx0 : ∀ (p : Fin 256) (d : Fin 64), x0 (ix4 (0 : Fin 1) (0 : Fin 1) p d) = Q (ix4 b h (rowOf qi p) d))
    (hx1 : ∀ (j : Fin 2048) (d : Fin 64), x1 (ix4 (0 : Fin 1) (0 : Fin 1) j d) = K (ix4 b h j d))
    (hx2 : ∀ (j : Fin 2048) (d : Fin 64), x2 (ix4 (0 : Fin 1) (0 : Fin 1) j d) = V (ix4 b h j d)) (p : Fin 256) (d : Fin 64) :
    k0_pay3 (F := Ideal) (k0_pay4 x2) (k0_pay5 i x0 x1) (k0_pay6 i x0 x1) (ix4 (0 : Fin 1) (0 : Fin 1) p d)
      = outAt Q K V b h (rowOf qi p) d := by
  rw [storedOutputs_apply, blockScores_eq Q K i x0 x1 b h qi hi hx0 hx1 p]
  unfold outAt attnAt
  exact Finset.sum_congr rfl fun j _ => by rw [hx2 j d]

/-! ## What each point writes back -/

/-- The three input blocks at a point hold the rows of the point's (b, h). -/
theorem queryBlock_eq (c : Dev nD) (t : Fin cfg0.N) (p : Fin 256) (d : Fin 64) :
    iblk m c 0 t (ix4 (0 : Fin 1) (0 : Fin 1) p d) = V m c main_arg0 (ix4 (pb t) (ph t) (rowOf (pq t) p) d) := by
  show V m c main_arg0 (((cfg0.win 0).blk t).view.emb (ix4 (0 : Fin 1) (0 : Fin 1) p d)) = _
  rw [queryBlock_pos]

theorem keyBlock_eq (c : Dev nD) (t : Fin cfg0.N) (j : Fin 2048) (d : Fin 64) :
    iblk m c 1 t (ix4 (0 : Fin 1) (0 : Fin 1) j d) = V m c main_arg1 (ix4 (pb t) (ph t) j d) := by
  show V m c main_arg1 (((cfg0.win 1).blk t).view.emb (ix4 (0 : Fin 1) (0 : Fin 1) j d)) = _
  rw [keyBlock_pos]

theorem valueBlock_eq (c : Dev nD) (t : Fin cfg0.N) (j : Fin 2048) (d : Fin 64) :
    iblk m c 2 t (ix4 (0 : Fin 1) (0 : Fin 1) j d) = V m c main_arg2 (ix4 (pb t) (ph t) j d) := by
  show V m c main_arg2 (((cfg0.win 2).blk t).view.emb (ix4 (0 : Fin 1) (0 : Fin 1) j d)) = _
  rw [valueBlock_pos]

/-- WHAT POINT `t` WRITES BACK to the weights' array is block `t` of the attention weights of the argument arrays. -/
theorem flushedWeights_eq (c : Dev nD) (t : Fin cfg0.N) :
    (dats m 0 c).flushed 4 t
      = ((cfg0.win 4).blk t).view.read (Elt Ideal) (attnArr (V m c main_arg0) (V m c main_arg1)) := by
  show (cfg0.win 4).cut (grid0.coords t) ((dats m 0 c).after 4 t) = _
  rw [after0_4]
  unfold out0_4
  rw [View.canon_unit_zero zero_offsets]
  simp only [View.ld_unit_zero (S := S1x1x256x64) zero_offsets, View.ld_unit_zero (S := S1x1x2048x64) zero_offsets]
  funext y
  obtain ⟨y0, y1, p, j, rfl⟩ : ∃ (y0 y1 : Fin 1) (p : Fin 256) (j : Fin 2048), y = ix4 y0 y1 p j :=
    ⟨y 0, y 1, y 2, y 3, eq_ix4 y⟩
  obtain rfl : y0 = 0 := Subsingleton.elim _ _
  obtain rfl : y1 = 0 := Subsingleton.elim _ _
  show k0_pay2 (F := Ideal) (k0_pay5 (grid0.coords t) (iblk m c 0 t) (iblk m c 1 t)) (k0_pay6 (grid0.coords t) (iblk m c 0 t) (iblk m c 1 t))
      (ix4 (0 : Fin 1) (0 : Fin 1) p j)
    = attnArr (V m c main_arg0) (V m c main_arg1) (((cfg0.win 4).blk t).view.emb (ix4 (0 : Fin 1) (0 : Fin 1) p j))
  rw [weightsBlock_pos, attnArr_ix4]
  exact weights_point (V m c main_arg0) (V m c main_arg1) (grid0.coords t) (iblk m c 0 t) (iblk m c 1 t) (pb t) (ph t) (pq t) rfl
    (queryBlock_eq m c t) (keyBlock_eq m c t) p j

/-- WHAT POINT `t` WRITES BACK to the outputs' array is block `t` of the attention outputs of the argument arrays. -/
theorem flushedOutputs_eq (c : Dev nD) (t : Fin cfg0.N) :
    (dats m 0 c).flushed 3 t
      = ((cfg0.win 3).blk t).view.read (Elt Ideal) (outArr (V m c main_arg0) (V m c main_arg1) (V m c main_arg2)) := by
  show (cfg0.win 3).cut (grid0.coords t) ((dats m 0 c).after 3 t) = _
  rw [after0_3]
  unfold out0_3
  rw [View.canon_unit_zero zero_offsets]
  simp only [View.ld_unit_zero (S := S1x1x256x64) zero_offsets, View.ld_unit_zero (S := S1x1x2048x64) zero_offsets]
  funext y
  obtain ⟨y0, y1, p, d, rfl⟩ : ∃ (y0 y1 : Fin 1) (p : Fin 256) (d : Fin 64), y = ix4 y0 y1 p d :=
    ⟨y 0, y 1, y 2, y 3, eq_ix4 y⟩
  obtain rfl : y0 = 0 := Subsingleton.elim _ _
  obtain rfl : y1 = 0 := Subsingleton.elim _ _
  show k0_pay3 (F := Ideal) (k0_pay4 (iblk m c 2 t)) (k0_pay5 (grid0.coords t) (iblk m c 0 t) (iblk m c 1 t))
      (k0_pay6 (grid0.coords t) (iblk m c 0 t) (iblk m c 1 t)) (ix4 (0 : Fin 1) (0 : Fin 1) p d)
    = outArr (V m c main_arg0) (V m c main_arg1) (V m c main_arg2) (((cfg0.win 3).blk t).view.emb (ix4 (0 : Fin 1) (0 : Fin 1) p d))
  rw [outBlock_pos, outArr_ix4]
  exact outputs_point (V m c main_arg0) (V m c main_arg1) (V m c main_arg2) (grid0.coords t) (iblk m c 0 t) (iblk m c 1 t)
    (iblk m c 2 t) (pb t) (ph t) (pq t) rfl (queryBlock_eq m c t) (keyBlock_eq m c t) (valueBlock_eq m c t) p d

/-! ## The blocks cover the arrays -/

/-- An index of the weights' array is in point `t`'s block iff each coordinate is in the block's range on its axis. -/
theorem mem_weightsBlock (t : Fin cfg0.N) (i : S2x12x2048x2048.Idx) :
    i ∈ ((cfg0.win 4).blk t).view.set ↔ ∀ a : Fin 4, win0_4.index t a * S1x1x256x2048.size a ≤ (i a).val
      ∧ (i a).val < win0_4.index t a * S1x1x256x2048.size a + S1x1x256x2048.size a := by
  show i ∈ ((View.whole main_v0_1).slice (win0_4.rect t)).set ↔ _
  rw [View.set_slice_whole, Rect.mem_set_unit]
  exact Iff.rfl

/-- An index of the outputs' array is in point `t`'s block iff each coordinate is in the block's range on its axis. -/
theorem mem_outBlock (t : Fin cfg0.N) (i : S2x12x2048x64.Idx) :
    i ∈ ((cfg0.win 3).blk t).view.set ↔ ∀ a : Fin 4, win0_3.index t a * S1x1x256x64.size a ≤ (i a).val
      ∧ (i a).val < win0_3.index t a * S1x1x256x64.size a + S1x1x256x64.size a := by
  show i ∈ ((View.whole main_v0_0).slice (win0_3.rect t)).set ↔ _
  rw [View.set_slice_whole, Rect.mem_set_unit]
  exact Iff.rfl

/-- Every index of the weights' array lies in the block of the point (b, h, r / 256). -/
theorem weights_cover (i : S2x12x2048x2048.Idx) :
    ∃ t : Fin cfg0.N, (cfg0.win 4).flush t = true ∧ i ∈ ((cfg0.win 4).blk t).view.set := by
  have hi0 : (i 0).val < 2 := (i 0).isLt
  have hi1 : (i 1).val < 12 := (i 1).isLt
  have hi2 : (i 2).val < 2048 := (i 2).isLt
  have hi3 : (i 3).val < 2048 := (i 3).isLt
  obtain ⟨t, c0, c1, c2⟩ := point_of ⟨(i 0).val, hi0⟩ ⟨(i 1).val, hi1⟩ ⟨(i 2).val / 256, by omega⟩
  obtain ⟨-, -, -, -, ⟨e0, e1, e2, e3⟩⟩ := block_indices t
  have c0' : (grid0.coords t (0 : Fin 3)).val = (i 0).val := c0
  have c1' : (grid0.coords t (1 : Fin 3)).val = (i 1).val := c1
  have c2' : (grid0.coords t (2 : Fin 3)).val = (i 2).val / 256 := c2
  refine ⟨t, flush0_4 t, ?_⟩
  rw [mem_weightsBlock]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 256 ≤ (i 2).val ∧ (i 2).val < win0_4.index t (2 : Fin 4) * 256 + 256; omega
  | ⟨3, _⟩ => show win0_4.index t (3 : Fin 4) * 2048 ≤ (i 3).val ∧ (i 3).val < win0_4.index t (3 : Fin 4) * 2048 + 2048; omega

/-- Every index of the outputs' array lies in the block of the point (b, h, r / 256). -/
theorem outputs_cover (i : S2x12x2048x64.Idx) :
    ∃ t : Fin cfg0.N, (cfg0.win 3).flush t = true ∧ i ∈ ((cfg0.win 3).blk t).view.set := by
  have hi0 : (i 0).val < 2 := (i 0).isLt
  have hi1 : (i 1).val < 12 := (i 1).isLt
  have hi2 : (i 2).val < 2048 := (i 2).isLt
  have hi3 : (i 3).val < 64 := (i 3).isLt
  obtain ⟨t, c0, c1, c2⟩ := point_of ⟨(i 0).val, hi0⟩ ⟨(i 1).val, hi1⟩ ⟨(i 2).val / 256, by omega⟩
  obtain ⟨-, -, -, ⟨e0, e1, e2, e3⟩, -⟩ := block_indices t
  have c0' : (grid0.coords t (0 : Fin 3)).val = (i 0).val := c0
  have c1' : (grid0.coords t (1 : Fin 3)).val = (i 1).val := c1
  have c2' : (grid0.coords t (2 : Fin 3)).val = (i 2).val / 256 := c2
  refine ⟨t, flush0_3 t, ?_⟩
  rw [mem_outBlock]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 256 ≤ (i 2).val ∧ (i 2).val < win0_3.index t (2 : Fin 4) * 256 + 256; omega
  | ⟨3, _⟩ => show win0_3.index t (3 : Fin 4) * 64 ≤ (i 3).val ∧ (i 3).val < win0_3.index t (3 : Fin 4) * 64 + 64; omega

/-! ## The arrays after the run -/

/-- The weights' array ends holding the attention weights of the arguments. -/
theorem finalWeights (c : Dev nD) :
    (dats m 0 c).arrAt 4 cfg0.N = attnArr (m ((c : Thread nD τ).loc main_arg0)) (m ((c : Thread nD τ).loc main_arg1)) :=
  (dats m 0 c).arrAt_eq_of_cover 4 (attnArr (V m c main_arg0) (V m c main_arg1)) (fun t _ => flushedWeights_eq m c t) weights_cover

/-- The outputs' array ends holding the attention outputs of the arguments. -/
theorem finalOutputs (c : Dev nD) :
    (dats m 0 c).arrAt 3 cfg0.N
      = outArr (m ((c : Thread nD τ).loc main_arg0)) (m ((c : Thread nD τ).loc main_arg1)) (m ((c : Thread nD τ).loc main_arg2)) :=
  (dats m 0 c).arrAt_eq_of_cover 3 (outArr (V m c main_arg0) (V m c main_arg1) (V m c main_arg2))
    (fun t _ => flushedOutputs_eq m c t) outputs_cover

/-- THE KERNEL'S RUN at the ideal values: every weakly fair execution terminates with the two result arrays at the
    attention outputs and weights of the argument arrays, the arguments unchanged. -/
theorem run : θ_run defs (onTc (τ := τ) (main (F := Ideal))) ⟨m, fun _ => 0, ρ⟩ fun r => ∀ c : Dev nD,
      r.2.mem ((c : Thread nD τ).loc main_v0_0)
        = outArr (m ((c : Thread nD τ).loc main_arg0)) (m ((c : Thread nD τ).loc main_arg1)) (m ((c : Thread nD τ).loc main_arg2))
      ∧ r.2.mem ((c : Thread nD τ).loc main_v0_1)
        = attnArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (finalOutputs m c), ((h c).1 4).trans (finalWeights m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.ArrayValue

end
-- ==== Proof.ReferenceIsWindowAttn.lean ====
/-
  The reference's two results are the sliding-window attention arrays.

  The reference computes the scores of every query against every key by one batched product, scales them by 1/8,
  builds the window mask from two position vectors, replaces the scores outside the window by -∞, and normalises each
  row: maximum, exponentials, sum, quotient; the output is one more batched product with the values. Read one
  operation at a time at an index (b, h, r, j), each stage depends on the stages before it at indices with the same
  (b, h, r): the masked score is `scoreRow` of query row r and the keys of (b, h); the row maximum is the fold of max
  over the key positions; the weights are `softmaxRow`; the output is their weighted sum of the values' rows.
-/
import proofs.«181524_j56813827391596_1_alg».proof.Proof.Gen.ReferenceIdeal.Read
import proofs.«181524_j56813827391596_1_alg».proof.Proof.WindowAttn

noncomputable section

namespace Cert.ReferenceIdeal.IsWindowAttn

open Cert.ReferenceIdeal Cert.ReferenceIdeal.Gen Cert.ReferenceIdeal.Read Cert.WindowAttn
open Idealize.ShloMosaic Idealize.ShloMosaic.ValueIdx

variable (Q K V : Sqkv.Idx → EReal)

/-- The masked score: the batched product at (b, h, r, j) is the inner product of query row r with key row j, the
    mask at (r, j) compares the two positions' words, and the fill value is -∞. -/
theorem masked_eq (b : Fin 2) (h : Fin 12) (r j : Fin 2048) :
    val_main_v19 (F := Ideal) Q K (ix4 b h r j)
      = scoreRow (BitVec.ofNat 32 r.val) (fun d => Q (ix4 b h r d)) (fun j' d => K (ix4 b h j' d)) j := by
  have el : (fun k : Fin 64 => lidx_main_v15 (ix4 b h r j) k) = fun k => ix4 b h r k :=
    funext fun k => funext fun a => Fin.ext (by match a with | ⟨0, _⟩ => rfl | ⟨1, _⟩ => rfl | ⟨2, _⟩ => rfl | ⟨3, _⟩ => rfl)
  have er : (fun k : Fin 64 => ridx_main_v15 (ix4 b h r j) k) = fun k => ix4 b h j k :=
    funext fun k => funext fun a => Fin.ext (by match a with | ⟨0, _⟩ => rfl | ⟨1, _⟩ => rfl | ⟨2, _⟩ => rfl | ⟨3, _⟩ => rfl)
  rw [val_main_v19_apply, val_main_v17_apply, val_main_v15_apply, val_main_v16_apply, val_main_call0_v2_apply,
    val_main_call0_v1_apply, val_main_v18_apply, val_main_v14_apply, val_main_v8_apply, val_main_v13_apply,
    val_main_v6_apply, val_main_v7_apply, val_main_v11_apply, val_main_v12_apply, val_main_v3_apply, val_main_v5_apply,
    val_main_v10_apply, val_main_v1_apply, val_main_v4_apply, val_main_v9_apply]
  unfold scoreRow inWindow
  have hl : ∀ k : Fin 64, lidx_main_v15 (ix4 b h r j) k = ix4 b h r k := fun k => congrFun el k
  have hr : ∀ k : Fin 64, ridx_main_v15 (ix4 b h r j) k = ix4 b h j k := fun k => congrFun er k
  simp only [hl, hr]
  rfl

/-- The row maximum: the reduce over the key axis at (b, h, r) is the fold of max over that row's masked scores. -/
theorem rowmax_eq (b : Fin 2) (h : Fin 12) (r : Fin 2048) :
    val_main_v22 (F := Ideal) Q K (ix3 b h r)
      = rowMax (scoreRow (BitVec.ofNat 32 r.val) (fun d => Q (ix4 b h r d)) (fun j' d => K (ix4 b h j' d))) := by
  have hred : S2x12x2048x2048.Reduces [3] S2x12x2048 := by decide
  rw [val_main_v22_apply, val_main_v21_apply]
  unfold val_main_v20 rowMax
  rw [Host.reduce_eq_fold_single FloatOps.maximumf _ _ reducesTo_S2x12x2048x2048_S2x12x2048_d3 hred h_S_ (ix3 b h r)]
  have hf : (val_main_v19 (F := Ideal) Q K ∘ hred.lift (ix3 b h r))
      = scoreRow (BitVec.ofNat 32 r.val) (fun d => Q (ix4 b h r d)) (fun j' d => K (ix4 b h j' d)) := by
    funext k
    have hk : hred.lift (ix3 b h r) k = ix4 b h r (⟨k.val, k.isLt⟩ : Fin 2048) := by
      funext c; apply Fin.ext
      fin_cases c <;> rfl
    show val_main_v19 (F := Ideal) Q K (hred.lift (ix3 b h r) k) = _
    rw [hk, masked_eq]
    rfl
  rw [hf]
  rfl

/-- The exponential of a masked score less its row's maximum. -/
theorem exp_eq (b : Fin 2) (h : Fin 12) (r j : Fin 2048) :
    val_main_v26 (F := Ideal) Q K (ix4 b h r j)
      = rowExp (scoreRow (BitVec.ofNat 32 r.val) (fun d => Q (ix4 b h r d)) (fun j' d => K (ix4 b h j' d))) j := by
  have e1 : idx_main_v23 (idx_main_v24 (ix4 b h r j)) = ix3 b h r :=
    funext fun a => Fin.ext (by match a with | ⟨0, _⟩ => rfl | ⟨1, _⟩ => rfl | ⟨2, _⟩ => rfl)
  rw [val_main_v26_apply, val_main_v25_apply, val_main_v24_apply, val_main_v23_apply, e1, rowmax_eq, masked_eq]
  rfl

/-- The attention weights. -/
theorem attn_eq : val_main_v30 (F := Ideal) Q K = attnArr Q K := by
  funext i
  obtain ⟨b, h, r, j, rfl⟩ : ∃ (b : Fin 2) (h : Fin 12) (r j : Fin 2048), i = ix4 b h r j := ⟨i 0, i 1, i 2, i 3, eq_ix4 i⟩
  have e1 : idx_main_v28 (idx_main_v29 (ix4 b h r j)) = ix3 b h r :=
    funext fun a => Fin.ext (by match a with | ⟨0, _⟩ => rfl | ⟨1, _⟩ => rfl | ⟨2, _⟩ => rfl)
  have e2 : (fun k : Fin 2048 => idx_main_v27 (ix3 b h r) k) = fun k => ix4 b h r k :=
    funext fun k => funext fun a => Fin.ext (by match a with | ⟨0, _⟩ => rfl | ⟨1, _⟩ => rfl | ⟨2, _⟩ => rfl | ⟨3, _⟩ => rfl)
  have h2 : ∀ k : Fin 2048, idx_main_v27 (ix3 b h r) k = ix4 b h r k := fun k => congrFun e2 k
  rw [attnArr_ix4, val_main_v30_apply, val_main_v29_apply, val_main_v28_apply, e1, val_main_v27_apply, exp_eq]
  simp only [h2, exp_eq]
  rfl

/-- The output: the batched product of the weights with the values at (b, h, r, d) is the sum over the keys. -/
theorem out_eq : val_main_v31 (F := Ideal) Q K V = outArr Q K V := by
  funext i
  obtain ⟨b, h, r, d, rfl⟩ : ∃ (b : Fin 2) (h : Fin 12) (r : Fin 2048) (d : Fin 64), i = ix4 b h r d := ⟨i 0, i 1, i 2, i 3, eq_ix4 i⟩
  have el : ∀ k : Fin 2048, lidx_main_v31 (ix4 b h r d) k = ix4 b h r k := fun k =>
    funext fun a => Fin.ext (by match a with | ⟨0, _⟩ => rfl | ⟨1, _⟩ => rfl | ⟨2, _⟩ => rfl | ⟨3, _⟩ => rfl)
  have er : ∀ k : Fin 2048, ridx_main_v31 (ix4 b h r d) k = ix4 b h k d := fun k =>
    funext fun a => Fin.ext (by match a with | ⟨0, _⟩ => rfl | ⟨1, _⟩ => rfl | ⟨2, _⟩ => rfl | ⟨3, _⟩ => rfl)
  rw [outArr_ix4, val_main_v31_apply, attn_eq]
  simp only [el, er, attnArr_ix4]
  rfl

end Cert.ReferenceIdeal.IsWindowAttn

end
-- ==== Proof.lean ====
/-
  Sliding-window attention: a tiled kernel against the dense reference, over the extended reals.

  For queries, keys and values of shape [2, 12, 2048, 64] both programs compute, for every batch entry b, head h and
  query position r, the scores ⟨Q[b,h,r,·], K[b,h,j,·]⟩ / 8 of the 2048 keys, keep those with r - 64 ≤ j < r + 64 and
  replace the others by -∞, normalise the row by its softmax (maximum from -∞, exponentials, sum from zero, quotient) —
  the attention weights, the second result — and sum the values' rows with those weights — the first result. The
  reference does this on whole arrays with two batched products; the kernel does it for one block of 256 query rows of
  one (b, h) at a time, against all keys and values of that (b, h), with the mask's row positions rebuilt from the
  block's number. At the ideal values a change of float format is the identity, a matrix product into the zero
  accumulator is the plain sum over the contracted coordinate, and both programs use the same words for 1/8, -∞ and 0,
  so the two are the same function of the arguments entry by entry: no algebraic law and no finiteness is needed, only
  that the blocks tile the arrays (Proof/KernelArrays.lean) and that each side's operations, read at an index, are the
  row-wise definition of Proof/WindowAttn.lean (Proof/BodyAtIndex.lean for the kernel's body,
  Proof/ReferenceIsWindowAttn.lean for the reference).

  The idealized kernel is the printed kernel read at the ideal values (no rewrite was applied), so `preserves` is
  trivial; the three frames are the kernels' frame runs and the reference's run with its results dropped.
-/
import proofs.«181524_j56813827391596_1_alg».proof.Defs
import proofs.«181524_j56813827391596_1_alg».proof.Proof.Gen.Kernel
import proofs.«181524_j56813827391596_1_alg».proof.Proof.Gen.Kernel.Skeleton
import proofs.«181524_j56813827391596_1_alg».proof.Proof.Gen.Kernel.Launch
import proofs.«181524_j56813827391596_1_alg».proof.Proof.Gen.Kernel.Points
import proofs.«181524_j56813827391596_1_alg».proof.Proof.KernelFrameP
import proofs.«181524_j56813827391596_1_alg».proof.Proof.Gen.KernelIdeal
import proofs.«181524_j56813827391596_1_alg».proof.Proof.Gen.KernelIdeal.Skeleton
import proofs.«181524_j56813827391596_1_alg».proof.Proof.Gen.KernelIdeal.Launch
import proofs.«181524_j56813827391596_1_alg».proof.Proof.Gen.KernelIdeal.Points
import proofs.«181524_j56813827391596_1_alg».proof.Proof.KernelIdealFrameP
import proofs.«181524_j56813827391596_1_alg».proof.Proof.Gen.ReferenceIdeal
import proofs.«181524_j56813827391596_1_alg».proof.Proof.Gen.ReferenceIdeal.Run
import proofs.«181524_j56813827391596_1_alg».proof.Proof.Gen.ReferenceIdeal.Read
import proofs.«181524_j56813827391596_1_alg».proof.Proof.Gen.Pre_finite_inputs
import proofs.«181524_j56813827391596_1_alg».proof.Proof.KernelArrays
import proofs.«181524_j56813827391596_1_alg».proof.Proof.ReferenceIsWindowAttn
import Idealize.ShloMosaic.Adequacy
import Idealize.ShloMosaic.Init

noncomputable section

namespace Cert.Proof

open Idealize.ShloMosaic Idealize.SL.Sem Cert.WindowAttn

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.GenP.frame m ρ

/-- The idealized kernel runs and leaves its arguments unchanged. -/
theorem frame_kernelIdeal :
    Cert.frame_KernelIdeal (hKernelIdeal := Cert.KernelIdeal.Gen.facts) (hPre_finite_inputs := Cert.Pre_finite_inputs.Gen.facts) :=
  fun m ρ _ => Cert.KernelIdeal.GenP.frame m ρ

/-- The reference runs and leaves its arguments unchanged: its run with the two results dropped. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- No operation was rewritten when the kernel was idealized. -/
theorem preserves : Cert.preserves_Kernel_KernelIdeal := trivial

/-- From memories that agree on the three arguments both programs end with the attention outputs and the attention
    weights of those arguments in their two results. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨_, _, Cert.KernelIdeal.ArrayValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v31_eq, Cert.ReferenceIdeal.IsWindowAttn.out_eq,
      (hagree c).1, (hagree c).2.1, (hagree c).2.2]
  · rw [(h c).2.1, Cert.ReferenceIdeal.Read.val_main_v30_eq, Cert.ReferenceIdeal.IsWindowAttn.attn_eq,
      (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
